-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000000x16 : Shape := ⟨3, ![1, 2000000, 16]⟩
abbrev S_ : Shape := ⟨0, ![]⟩

class Facts : Prop where
  bcast_S_S1x2000000x16 : S_.BroadcastsInDim S1x2000000x16 (![] : Fin 0 → Fin S1x2000000x16.rank)
  reducesTo_S1x2000000x16_S_d0_1_2 : S1x2000000x16.ReducesTo [0, 1, 2] S_
  h_S_ : 0 < S_.numel

variable [Facts]

def fn {F : FTy → Type} [FloatOps F] (main_arg0 : FVec F S1x2000000x16 .f32) : IVec S_ 1 :=
  let main_v0 : FVec F S1x2000000x16 .f32 := Host.absf main_arg0
  let main_cst : FVec F S_ .f32 := constant S_ .f32 0x7F800000#32
  let main_v1 : FVec F S1x2000000x16 .f32 := broadcastInDim S1x2000000x16 ![] bcast_S_S1x2000000x16 main_cst
  let main_v2 : IVec S1x2000000x16 1 := cmpf .olt main_v0 main_v1
  let main_c : IVec S_ 1 := constantI S_ 1 1#1
  let main_v3 : IVec S_ 1 := (fun x v => Host.reduce IntOp.andi x v reducesTo_S1x2000000x16_S_d0_1_2 h_S_) main_v2 main_c
  main_v3
-- ==== Kernel.lean ====
abbrev S1x2000000x16 : Shape := ⟨3, ![1, 2000000, 16]⟩
abbrev S1x250000x128 : Shape := ⟨3, ![1, 250000, 128]⟩
abbrev S2x1x128 : Shape := ⟨3, ![2, 1, 128]⟩
abbrev S1x5000x128 : Shape := ⟨3, ![1, 5000, 128]⟩
abbrev S1x1x128 : Shape := ⟨3, ![1, 1, 128]⟩
abbrev S1x128 : Shape := ⟨2, ![1, 128]⟩
abbrev S_ : Shape := ⟨0, ![]⟩
abbrev S1x8x16 : Shape := ⟨3, ![1, 8, 16]⟩
abbrev S1x16 : Shape := ⟨2, ![1, 16]⟩
abbrev S1x1x1x16 : Shape := ⟨4, ![1, 1, 1, 16]⟩
abbrev S1x1x8x16 : Shape := ⟨4, ![1, 1, 8, 16]⟩
abbrev S1x10000x128 : Shape := ⟨3, ![1, 10000, 128]⟩

abbrev nBuf : Space → Nat
  | .hbm => 24
  | .vmem => 11
  | .smem => 0
  | _ => 0

abbrev bufTy : (tb : Table) → Fin (tcTables nBuf tb) → BufTy
  | .hbm, ⟨0, _⟩ => ⟨S1x2000000x16, .f32⟩
  | .hbm, ⟨1, _⟩ => ⟨S1x250000x128, .f32⟩
  | .hbm, ⟨2, _⟩ => ⟨S2x1x128, .f32⟩
  | .hbm, ⟨3, _⟩ => ⟨S2x1x128, .f32⟩
  | .hbm, ⟨4, _⟩ => ⟨S_, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x8x16, .f32⟩
  | .hbm, ⟨9, _⟩ => ⟨S_, .f32⟩
  | .hbm, ⟨10, _⟩ => ⟨S1x16, .f32⟩
  | .hbm, ⟨11, _⟩ => ⟨S1x8x16, .f32⟩
  | .hbm, ⟨12, _⟩ => ⟨S_, .f32⟩
  | .hbm, ⟨13, _⟩ => ⟨S1x16, .f32⟩
  | .hbm, ⟨14, _⟩ => ⟨S_, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x1x1x16, .f32⟩
  | .hbm, ⟨19, _⟩ => ⟨S1x1x8x16, .f32⟩
  | .hbm, ⟨20, _⟩ => ⟨S1x128, .f32⟩
  | .hbm, ⟨21, _⟩ => ⟨S1x1x128, .f32⟩
  | .hbm, ⟨22, _⟩ => ⟨S1x250000x128, .f32⟩
  | .hbm, ⟨23, _⟩ => ⟨S1x2000000x16, .f32⟩
  | .local _ .vmem, ⟨0, _⟩ => ⟨S1x5000x128, .f32⟩
  | .local _ .vmem, ⟨1, _⟩ => ⟨S1x5000x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x10000x128, .f32⟩
  | .local _ .vmem, ⟨7, _⟩ => ⟨S1x10000x128, .f32⟩
  | .local _ .vmem, ⟨8, _⟩ => ⟨S1x1x128, .f32⟩
  | .local _ .vmem, ⟨9, _⟩ => ⟨S1x10000x128, .f32⟩
  | .local _ .vmem, ⟨10, _⟩ => ⟨S1x10000x128, .f32⟩
  | _, _ => ⟨S1x2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x2000000x16_S1x250000x128 : S1x2000000x16.ShapeCasts S1x250000x128
  inb_S1x1x128_S1x1x128_0_0_0 : ∀ a, (![0, 0, 0] : Fin 3 → Nat) a + S1x1x128.size a ≤ S1x1x128.size a
  h_S1x1x128 : 0 < S1x1x128.numel
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S1x5000x128 : S1x5000x128.ShapeCasts S1x5000x128
  natLt_1_32 : 1 < 32
  shapeCasts_S1x1x128_S1x1x128 : S1x1x128.ShapeCasts S1x1x128
  reduces_S1x5000x128_S1x128 : S1x5000x128.Reduces [1] S1x128
  shapeCasts_S1x128_S1x1x128 : S1x128.ShapeCasts S1x1x128
  reducesTo_S2x1x128_S1x128_d0 : S2x1x128.ReducesTo [0] S1x128
  h_S_ : 0 < S_.numel
  shapeCasts_S1x128_S1x8x16 : S1x128.ShapeCasts S1x8x16
  reducesTo_S1x8x16_S1x16_d1 : S1x8x16.ReducesTo [1] S1x16
  bcast_S_S1x16 : S_.BroadcastsInDim S1x16 (![] : Fin 0 → Fin S1x16.rank)
  shapeCasts_S1x16_S1x1x1x16 : S1x16.ShapeCasts S1x1x1x16
  bcast_S1x1x1x16_S1x1x8x16_0_1_2_3 : S1x1x1x16.BroadcastsInDim S1x1x8x16 (![0, 1, 2, 3] : Fin 4 → Fin S1x1x8x16.rank)
  shapeCasts_S1x1x8x16_S1x128 : S1x1x8x16.ShapeCasts S1x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S1x10000x128 : S1x10000x128.ShapeCasts S1x10000x128
  broadcasts_S1x1x128_S1x10000x128 : S1x1x128.Broadcasts S1x10000x128
  shapeCasts_S1x250000x128_S1x2000000x16 : S1x250000x128.ShapeCasts S1x2000000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S1x250000x128.size a
  hwx0_0 : ∀ i : grid0.Coords, EltTy.bits .f32 = 32 ∨ (Rect.block (s := S1x250000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x128.size a
  hwx0_1 : ∀ i : grid0.Coords, EltTy.bits .f32 = 32 ∨ (Rect.block (s := S2x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x128.size a ≤ S1x250000x128.size a
  hwx1_0 : ∀ i : grid1.Coords, EltTy.bits .f32 = 32 ∨ (Rect.block (s := S1x250000x128) S1x10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S1x1x128.size a
  hwx1_1 : ∀ i : grid1.Coords, EltTy.bits .f32 = 32 ∨ (Rect.block (s := S1x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10000x128.size a ≤ S1x250000x128.size a
  hwx1_2 : ∀ i : grid1.Coords, EltTy.bits .f32 = 32 ∨ (Rect.block (s := S1x250000x128) S1x10000x128.size (cc1_transform_2 i) (hinb1_2 i)).WholeWords (EltTy.packing .f32)

variable [Facts₀]

abbrev win0_0 : Pipeline.Window sig grid0 :=
  Pipeline.Window.ofSpec (Memref.whole main_v0) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x2000000x16 : Shape := ⟨3, ![1, 2000000, 16]⟩
abbrev S_ : Shape := ⟨0, ![]⟩
abbrev S1x16 : Shape := ⟨2, ![1, 16]⟩
abbrev S1x1x16 : Shape := ⟨3, ![1, 1, 16]⟩

abbrev nBuf : Space → Nat
  | .hbm => 18
  | .vmem => 0
  | .smem => 0
  | _ => 0

abbrev bufTy : (tb : Table) → Fin (tcTables nBuf tb) → BufTy
  | .hbm, ⟨0, _⟩ => ⟨S1x2000000x16, .f32⟩
  | .hbm, ⟨1, _⟩ => ⟨S1x2000000x16, .i1⟩
  | .hbm, ⟨2, _⟩ => ⟨S_, .f32⟩
  | .hbm, ⟨3, _⟩ => ⟨S1x2000000x16, .f32⟩
  | .hbm, ⟨4, _⟩ => ⟨S1x2000000x16, .f32⟩
  | .hbm, ⟨5, _⟩ => ⟨S1x2000000x16, .i1⟩
  | .hbm, ⟨6, _⟩ => ⟨S1x2000000x16, .f32⟩
  | .hbm, ⟨7, _⟩ => ⟨S_, .f32⟩
  | .hbm, ⟨8, _⟩ => ⟨S1x16, .f32⟩
  | .hbm, ⟨9, _⟩ => ⟨S_, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S1x1x16, .f32⟩
  | .hbm, ⟨16, _⟩ => ⟨S1x2000000x16, .f32⟩
  | .hbm, ⟨17, _⟩ => ⟨S1x2000000x16, .f32⟩
  | _, _ => ⟨S1x2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S1x2000000x16 : S_.BroadcastsInDim S1x2000000x16 (![] : Fin 0 → Fin S1x2000000x16.rank)
  reducesTo_S1x2000000x16_S1x16_d1 : S1x2000000x16.ReducesTo [1] S1x16
  h_S_ : 0 < S_.numel
  bcast_S_S1x16 : S_.BroadcastsInDim S1x16 (![] : Fin 0 → Fin S1x16.rank)
  bcast_S1x16_S1x1x16_0_2 : S1x16.BroadcastsInDim S1x1x16 (![0, 2] : Fin 2 → Fin S1x1x16.rank)
  bcast_S1x1x16_S1x2000000x16_0_1_2 : S1x1x16.BroadcastsInDim S1x2000000x16 (![0, 1, 2] : Fin 3 → Fin S1x2000000x16.rank)

variable [Facts₀]

class Facts : Prop extends Facts₀ where

variable [Facts]
-- ==== Proof.KernelRun.lean ====
/-
  The idealized kernel's run with its result array named.

  @main is five segments: fold the input ([1, 2000000, 16] → [1, 250000, 128]); the sum-and-count region; the host
  arithmetic that turns the partial sums into the row of column means; the fill region; unfold the output
  ([1, 250000, 128] → [1, 2000000, 16]). The contents of every buffer at each segment boundary are a fold from the
  launch memory (`W0 … W5`). Every weakly fair execution terminates without a fault, and the final memory
  holds, at every unscoped buffer, the last boundary's contents `W5`: read here at the result `main_v16` and at the
  argument `main_arg0` (which no segment writes).
-/
import proofs.«156487_j31645319037206_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument array as launched. -/
theorem run : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c)⟩)

end Cert.KernelIdeal.Result

end
-- ==== Proof.SelfCompare.lean ====
/-
  A value compared with itself for "not equal" is never so on the extended reals: there is no NaN there, so both
  the ordered and the unordered "not equal" of `x` with `x` are the bit 0, at every index, whatever `x` holds
  (finite or not). A select on that mask is therefore its second operand. This is the whole mathematics of the
  certificate: "is this entry a NaN" is answered "no" everywhere, and "fill the NaN entries with the column mean"
  leaves the array as it was.
-/
import Idealize.ShloMosaic.PureOps.Ideal
import Idealize.ShloMosaic.Lib.ValueIdx

noncomputable section

namespace Cert.SelfCompare

open Idealize.ShloMosaic

variable {s : Shape} {φ : FTy}

/-- The ordered "not equal" of an extended real with itself is the bit 0. -/
theorem cmp_one_self (x : EReal) : Ideal.cmp .one x x = 0#1 := by
  simp [Ideal.cmp]

/-- The unordered "not equal" of an extended real with itself is the bit 0. -/
theorem cmp_une_self (x : EReal) : Ideal.cmp .une x x = 0#1 := by
  simp [Ideal.cmp]

/-- A select whose mask is "`x` differs from `x`" (ordered) is its second operand. -/
theorem select_one_self {α : Type} (x : FVec Ideal s φ) (a b : s.Idx → α) :
    select (cmpf .one x x) a b = b := by
  funext i
  rw [ValueIdx.select_apply, ValueIdx.cmpf_apply]
  show Scalar.select (Ideal.cmp .one (x i) (x i)) (a i) (b i) = b i
  rw [cmp_one_self, ValueIdx.select_zero]

/-- A select whose mask is "`x` differs from `x`" (unordered) is its second operand. -/
theorem select_une_self {α : Type} (x : FVec Ideal s φ) (a b : s.Idx → α) :
    select (cmpf .une x x) a b = b := by
  funext i
  rw [ValueIdx.select_apply, ValueIdx.cmpf_apply]
  show Scalar.select (Ideal.cmp .une (x i) (x i)) (a i) (b i) = b i
  rw [cmp_une_self, ValueIdx.select_zero]

end Cert.SelfCompare

end
-- ==== Proof.FillBlocks.lean ====
/-
  The second kernel region (the fill), read as values at the extended reals.

  Its grid has 25 points. At point `t` the body loads rows `10000 t … 10000 t + 9999` of the folded input
  (a [1, 250000, 128] array), loads the [1, 1, 128] row of column means, and stores
  `select (x ≠ x) mean x` into the same rows of the output. On the extended reals `x ≠ x` is false at every
  entry (SelfCompare), so the stored block IS the loaded block, whatever the row of means holds.
  The input window and the output window move together (same block shape, same index map), so what point `t`
  writes back is block `t` of the folded input; the 25 blocks tile the 250000 rows, so the output array ends
  holding the folded input, entry by entry.
-/
import proofs.«156487_j31645319037206_2_alg».proof.Proof.Gen.KernelIdeal.Frame
import proofs.«156487_j31645319037206_2_alg».proof.Proof.SelfCompare
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Fill

open Cert.KernelIdeal Cert.KernelIdeal.Gen

-- The buffer contents the fill region is entered from: a parameter, as in the region's own proof data.
variable (V : (c : Dev nD) → (b : Ref sig .tc) → Buf (Elt Ideal) ((c : Thread nD τ).loc b))

theorem zero_offsets : (![0, 0, 0] : Fin 3 → Nat) = fun _ => 0 := funext fun a => by fin_cases a <;> rfl

/-- The body's stored value is the loaded input block: the select's mask "`x` differs from `x`" is false everywhere. -/
theorem fill_payload (x0 : Vec Ideal S1x10000x128 .f32) (x1 : Vec Ideal S1x1x128 .f32) :
    k1_pay1 (F := Ideal) x0 x1 = x0 := by
  unfold k1_pay1
  dsimp only
  rw [shapeCast_self]
  exact Cert.SelfCompare.select_one_self _ _ _

/-- So the output window's staging buffer after the body holds the input window's block. -/
theorem fill_block (x0 : Vec Ideal S1x10000x128 .f32) (x1 : Vec Ideal S1x1x128 .f32) :
    out1_2 (F := Ideal) x0 x1 = x0 := by
  unfold out1_2
  rw [View.canon_unit_zero zero_offsets]
  simp only [View.ld_unit_zero (S := S1x10000x128) zero_offsets, View.ld_unit_zero (S := S1x1x128) zero_offsets]
  exact fill_payload _ _

/-- The input window and the output window sit on the same block at every point, and that block is
    (0, t, 0): decided over the 25 points. -/
theorem index_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_2.index t (0 : Fin 3) = 0 ∧ win1_2.index t (1 : Fin 3) = t.val ∧ win1_2.index t (2 : Fin 3) = 0 :=
  (by decide +kernel : ∀ t : Fin grid1.N, _)

/-- The folded input as the region finds it, typed at its literal shape. -/
abbrev folded (c : Dev nD) : S1x250000x128.Idx → Elt Ideal .f32 := V c main_v0

/-- What point `t` writes back is block `t` of the folded input. -/
theorem flushed_eq (c : Dev nD) (t : Fin cfg1.N) :
    (dat1 V c).flushed 2 t = ((cfg1.win 2).blk t).view.read (Elt Ideal) (folded V c) := by
  show (cfg1.win 2).cut (grid1.coords t) ((dat1 V c).after 2 t) = _
  rw [after1_2, fill_block]
  obtain ⟨e0, e1, e2, -, -, -⟩ := index_facts t
  funext j
  show V c main_v0 (((cfg1.win 0).blk t).view.emb j) = V c main_v0 (((cfg1.win 2).blk t).view.emb j)
  have h0 : ((cfg1.win 0).blk t).view.emb j = ((cfg1.win 2).blk t).view.emb j := by
    funext a; apply Fin.ext
    match a with
    | ⟨0, _⟩ => show win1_0.index t (0 : Fin 3) * 1 + 1 * (j 0).val = win1_2.index t (0 : Fin 3) * 1 + 1 * (j 0).val; omega
    | ⟨1, _⟩ => show win1_0.index t (1 : Fin 3) * 10000 + 1 * (j 1).val = win1_2.index t (1 : Fin 3) * 10000 + 1 * (j 1).val; omega
    | ⟨2, _⟩ => show win1_0.index t (2 : Fin 3) * 128 + 1 * (j 2).val = win1_2.index t (2 : Fin 3) * 128 + 1 * (j 2).val; omega
  rw [h0]

/-- An entry of the output array is in point `t`'s block iff each coordinate is in the block's range on its axis. -/
theorem mem_block (t : Fin cfg1.N) (i : S1x250000x128.Idx) :
    i ∈ ((cfg1.win 2).blk t).view.set ↔ ∀ a : Fin 3, win1_2.index t a * S1x10000x128.size a ≤ (i a).val ∧ (i a).val < win1_2.index t a * S1x10000x128.size a + S1x10000x128.size a := by
  show i ∈ ((View.whole main_v15).slice (win1_2.rect t)).set ↔ _
  rw [View.set_slice_whole, Rect.mem_set_unit]
  exact Iff.rfl

/-- Every entry is in some point's block: row `r` is in the block of point `r / 10000`. -/
theorem cover (i : S1x250000x128.Idx) :
    ∃ t : Fin cfg1.N, (cfg1.win 2).flush t = true ∧ i ∈ ((cfg1.win 2).blk t).view.set := by
  have hi0 : (i 0).val < 1 := (i 0).isLt
  have hi1 : (i 1).val < 250000 := (i 1).isLt
  have hi2 : (i 2).val < 128 := (i 2).isLt
  have hN : grid1.N = 25 := N_1
  have hlt : (i 1).val / 10000 < grid1.N := by rw [hN]; omega
  obtain ⟨-, -, -, q0, q1, q2⟩ := index_facts ⟨(i 1).val / 10000, hlt⟩
  refine ⟨⟨(i 1).val / 10000, hlt⟩, flush1_2 _, ?_⟩
  rw [mem_block]
  intro a
  match a with
  | ⟨0, _⟩ => show win1_2.index _ (0 : Fin 3) * 1 ≤ (i 0).val ∧ (i 0).val < win1_2.index _ (0 : Fin 3) * 1 + 1; rw [q0]; omega
  | ⟨1, _⟩ => show win1_2.index _ (1 : Fin 3) * 10000 ≤ (i 1).val ∧ (i 1).val < win1_2.index _ (1 : Fin 3) * 10000 + 10000; rw [q1]; show (i 1).val / 10000 * 10000 ≤ (i 1).val ∧ (i 1).val < (i 1).val / 10000 * 10000 + 10000; omega
  | ⟨2, _⟩ => show win1_2.index _ (2 : Fin 3) * 128 ≤ (i 2).val ∧ (i 2).val < win1_2.index _ (2 : Fin 3) * 128 + 128; rw [q2]; omega

/-- The output array after the fill region is the folded input. -/
theorem filled (c : Dev nD) : (dat1 V c).arrAt 2 cfg1.N = folded V c :=
  (dat1 V c).arrAt_eq_of_cover 2 (folded V c) (fun t _ => flushed_eq V c t) cover

end Cert.KernelIdeal.Fill

end
-- ==== Proof.KernelValue.lean ====
/-
  What the idealized kernel's result array holds: the argument array, entry by entry.

  Walk the buffer contents back from the last segment boundary. The result `main_v16` is the fill region's output
  `main_v15` unfolded ([1, 250000, 128] → [1, 2000000, 16], row-major). That output is the folded input `main_v0` as
  the fill region finds it (FillBlocks: the mask "x differs from x" is false, so every block is copied). No host
  operation between the two regions writes `main_v0`, and the sum-and-count region only reads it (it is an input
  window's array there), so it still holds what the first host operation put there: the argument folded
  ([1, 2000000, 16] → [1, 250000, 128], row-major). Folding and then unfolding an array is the identity.
  Nothing here asks the argument to be finite.
-/
import proofs.«156487_j31645319037206_2_alg».proof.Proof.Gen.KernelIdeal.Frame
import proofs.«156487_j31645319037206_2_alg».proof.Proof.FillBlocks
import Idealize.ShloMosaic.Lib.StableHlo.Run
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The argument array at its literal shape. -/
abbrev arg (c : Dev nD) : S1x2000000x16.Idx → Elt Ideal .f32 := m ((c.tc : Thread nD τ).loc main_arg0)

/-- At the first region's entry `main_v0` holds the argument folded. -/
theorem folded_at_entry (c : Dev nD) :
    (W1 m ρ c (Proc.devRef .tc main_v0) : S1x250000x128.Idx → Elt Ideal .f32)
      = shapeCast S1x250000x128 (arg m c) shapeCasts_S1x2000000x16_S1x250000x128 := by
  dsimp only [W1, hostOps0]
  after_results
  rfl

/-- The sum-and-count region only reads `main_v0`: an input window's array is never written back. -/
theorem folded_after_sums (c : Dev nD) :
    W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))

/-- No host operation between the regions writes `main_v0`. -/
theorem folded_at_fill (c : Dev nD) :
    W3 m ρ c (Proc.devRef .tc main_v0) = W2 m ρ c (Proc.devRef .tc main_v0) :=
  StableHlo.after_of_forall_not_mem (b := Proc.devRef .tc main_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- After the fill region its output array is the folded input. -/
theorem filled_output (c : Dev nD) :
    (W4 m ρ c (Proc.devRef .tc main_v15) : S1x250000x128.Idx → Elt Ideal .f32) = W3 m ρ c (Proc.devRef .tc main_v0) :=
  (W4_arr m ρ c 2).trans (Cert.KernelIdeal.Fill.filled (V3 m ρ) c)

/-- The result is the fill region's output unfolded. -/
theorem result_unfolds (c : Dev nD) :
    (W5 m ρ c (Proc.devRef .tc main_v16) : S1x2000000x16.Idx → Elt Ideal .f32)
      = shapeCast S1x2000000x16 (W4 m ρ c (Proc.devRef .tc main_v15) : S1x250000x128.Idx → Elt Ideal .f32) shapeCasts_S1x250000x128_S1x2000000x16 := by
  dsimp only [W5, hostOps2]
  after_results
  rfl

/-- The result array is the argument array. -/
theorem result_eq (c : Dev nD) :
    (W5 m ρ c (Proc.devRef .tc main_v16) : S1x2000000x16.Idx → Elt Ideal .f32) = arg m c := by
  rw [result_unfolds, filled_output, folded_at_fill, folded_after_sums, folded_at_entry]
  exact shapeCast_shapeCast _ _ _

end Cert.KernelIdeal.Result

end
-- ==== Proof.Reference.lean ====
/-
  What the idealized reference's result array holds: the argument array, entry by entry.

  The reference marks the NaN entries (`x ≠ x`, unordered), replaces them by 0, sums the columns and the count of
  unmarked entries, divides, and puts the column mean at the marked entries. Its run ends with the result at
  `select (x ≠ x) mean (select (x ≠ x) 0 x)`. On the extended reals `x ≠ x` is false at every entry (SelfCompare),
  so both selects are their second operand and the result is `x`, whatever the mean is.
-/
import proofs.«156487_j31645319037206_2_alg».proof.Defs
import proofs.«156487_j31645319037206_2_alg».proof.Proof.Gen.ReferenceIdeal.Run
import proofs.«156487_j31645319037206_2_alg».proof.Proof.SelfCompare

noncomputable section

namespace Cert.ReferenceIdeal.Result

open Cert.ReferenceIdeal Cert.ReferenceIdeal.Gen
open Idealize.ShloMosaic Idealize.ShloMosaic.TcCoe Idealize.SL.Sem

/-- Filling the marked entries of the zero-filled array, when no entry is marked, gives the array back. -/
theorem fill_unmarked (x : FVec Ideal S1x2000000x16 .f32) (mean zeros : FVec Ideal S1x2000000x16 .f32) :
    select (cmpf .une x x) mean (select (cmpf .une x x) zeros x) = x := by
  rw [Cert.SelfCompare.select_une_self, Cert.SelfCompare.select_une_self]

/-- Every weakly fair execution of the reference terminates with the result array at the argument array and the
    argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = m ((c.tc : Thread nD τ).loc main_arg0)
      ∧ r.2.mem ((c.tc : Thread nD τ).loc main_arg0) = m ((c.tc : Thread nD τ).loc main_arg0) :=
  (θ_run defs _ _).mono (fun _ h c => ⟨(h c).1.trans (fill_unmarked _ _ _), (h c).2⟩)
    (Cert.ReferenceIdeal.Value.run (F := Ideal) m ρ)

end Cert.ReferenceIdeal.Result

end
-- ==== Proof.lean ====
/-
  The proof of `Cert.Claim`: a NaN-fill kernel against its jnp reference, on the extended reals.

  The reference replaces each NaN entry of a [1, 2000000, 16] array by the mean of the non-NaN entries of its
  column. The kernel does the same in two regions on the array folded to [1, 250000, 128] (eight consecutive rows in
  one 128-lane row): the first accumulates per-lane sums and counts over 2 × 25 blocks of 5000 rows, a few host
  operations turn them into a row of 128 means, and the second region overwrites the NaN entries of each of 25 blocks
  of 10000 rows with that row; the result is unfolded back.

  On the extended reals there is no NaN: "x differs from x" is false at every entry (Proof/SelfCompare.lean). So in
  both programs every select keeps its second operand, and both results are the argument array itself, entry by entry:
    * the reference's result is `select (x ≠ x) mean (select (x ≠ x) 0 x) = x` (Proof/Reference.lean);
    * the kernel's fill region copies each block, so its output is the folded argument (Proof/FillBlocks.lean), and
      folding then unfolding is the identity (Proof/KernelValue.lean) — the sums, the counts and the means never
      enter the result;
    * the kernel's run with its result array named is Proof/KernelRun.lean.
  The equality needs no finiteness of the argument. The three frame claims are the generated frame certificates (the
  reference's, its generated run with the result dropped); the kernel's idealization rewrote nothing, so `preserves`
  is `True`.
-/
import proofs.«156487_j31645319037206_2_alg».proof.Defs
import proofs.«156487_j31645319037206_2_alg».proof.Proof.Gen.Kernel
import proofs.«156487_j31645319037206_2_alg».proof.Proof.Gen.Kernel.Frame
import proofs.«156487_j31645319037206_2_alg».proof.Proof.Gen.KernelIdeal
import proofs.«156487_j31645319037206_2_alg».proof.Proof.Gen.KernelIdeal.Frame
import proofs.«156487_j31645319037206_2_alg».proof.Proof.Gen.ReferenceIdeal
import proofs.«156487_j31645319037206_2_alg».proof.Proof.Gen.Pre_finite_inputs
import proofs.«156487_j31645319037206_2_alg».proof.Proof.KernelRun
import proofs.«156487_j31645319037206_2_alg».proof.Proof.KernelValue
import proofs.«156487_j31645319037206_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Result.run m ρ)

/-- The idealization rewrote no operation. -/
theorem preserves : Cert.preserves_Kernel_KernelIdeal := trivial

/-- Both programs end with the argument array in their result: the common value is the argument itself. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), ?_, ?_⟩
  · exact (θ_run Cert.KernelIdeal.defs _ _).mono
      (fun _ h c => ⟨(h c).1.trans (Cert.KernelIdeal.Result.result_eq m ρ c), (h c).2⟩)
      (Cert.KernelIdeal.Result.run (F := Ideal) m ρ)
  · exact (θ_run Cert.ReferenceIdeal.defs _ _).mono
      (fun _ h c => ⟨(h c).1.trans (hagree c), (h c).2⟩)
      (Cert.ReferenceIdeal.Result.run m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
